-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S4x128x128 : Shape := ⟨3, ![4, 128, 128]⟩
abbrev S4x128 : Shape := ⟨2, ![4, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg7 : FVec F S4x128 .f32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  main_v38

def fn_part1 {F : FTy → Type} [FloatOps F] (main_arg4 : FVec F S4x128x128 .f32) (main_arg5 : FVec F S4x128 .f32) (main_arg6 : FVec F S4x128 .f32) (main_arg7 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_v33

def fn {F : FTy → Type} [FloatOps F] (main_arg0 : FVec F S65536x128 .f32) (main_arg1 : FVec F S65536x128 .f32) (main_arg2 : FVec F S65536x128 .f32) (main_arg3 : FVec F S4x128x128 .f32) (main_arg4 : FVec F S4x128x128 .f32) (main_arg5 : FVec F S4x128 .f32) (main_arg6 : FVec F S4x128 .f32) (main_arg7 : FVec F S4x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_v13 main_v16
-- ==== Kernel.lean ====
abbrev S65536x128 : Shape := ⟨2, ![65536, 128]⟩
abbrev S4x128x128 : Shape := ⟨3, ![4, 128, 128]⟩
abbrev S4x128 : Shape := ⟨2, ![4, 128]⟩
abbrev S4 : Shape := ⟨1, ![4]⟩
abbrev S128x4x128 : Shape := ⟨3, ![128, 4, 128]⟩
abbrev S128x512 : Shape := ⟨2, ![128, 512]⟩
abbrev S1x512 : Shape := ⟨2, ![1, 512]⟩
abbrev S4x1 : Shape := ⟨2, ![4, 1]⟩
abbrev S_ : Shape := ⟨0, ![]⟩
abbrev S1 : Shape := ⟨1, ![1]⟩
abbrev S128 : Shape := ⟨1, ![128]⟩
abbrev S2x65536x128 : Shape := ⟨3, ![2, 65536, 128]⟩
abbrev S1024x128 : Shape := ⟨2, ![1024, 128]⟩
abbrev S2x1024x128 : Shape := ⟨3, ![2, 1024, 128]⟩
abbrev S1024x512 : Shape := ⟨2, ![1024, 512]⟩
abbrev S1x1024x128 : Shape := ⟨3, ![1, 1024, 128]⟩

abbrev nBuf : Space → Nat
  | .hbm => 27
  | .vmem => 13
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S4x128x128, .f32⟩
  | .hbm, ⟨4, _⟩ => ⟨S4x128x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4, .f32⟩
  | .hbm, ⟨9, _⟩ => ⟨S128x4x128, .f32⟩
  | .hbm, ⟨10, _⟩ => ⟨S128x512, .f32⟩
  | .hbm, ⟨11, _⟩ => ⟨S128x512, .bf16⟩
  | .hbm, ⟨12, _⟩ => ⟨S128x4x128, .f32⟩
  | .hbm, ⟨13, _⟩ => ⟨S128x512, .f32⟩
  | .hbm, ⟨14, _⟩ => ⟨S128x512, .bf16⟩
  | .hbm, ⟨15, _⟩ => ⟨S4x128, .f32⟩
  | .hbm, ⟨16, _⟩ => ⟨S1x512, .f32⟩
  | .hbm, ⟨17, _⟩ => ⟨S4x1, .f32⟩
  | .hbm, ⟨18, _⟩ => ⟨S4x128, .f32⟩
  | .hbm, ⟨19, _⟩ => ⟨S1x512, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S128, .f32⟩
  | .hbm, ⟨24, _⟩ => ⟨S4x128, .f32⟩
  | .hbm, ⟨25, _⟩ => ⟨S1x512, .f32⟩
  | .hbm, ⟨26, _⟩ => ⟨S2x65536x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S2x1024x128, .f32⟩
  | .local _ .vmem, ⟨12, _⟩ => ⟨S2x1024x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x128x128_S128x4x128_2_0_1 : S4x128x128.Transposes [2, 0, 1] S128x4x128
  shapeCasts_S128x4x128_S128x512 : S128x4x128.ShapeCasts S128x512
  bitsLt_bf16_f32 : FTy.bits .bf16 < FTy.bits .f32
  shapeCasts_S4x128_S1x512 : S4x128.ShapeCasts S1x512
  bcast_S4_S4x1_0 : S4.BroadcastsInDim S4x1 (![0] : Fin 1 → Fin S4x1.rank)
  bcast_S4x1_S4x128_0_1 : S4x1.BroadcastsInDim S4x128 (![0, 1] : Fin 2 → Fin S4x128.rank)
  bcast_S_S1 : S_.BroadcastsInDim S1 (![] : Fin 0 → Fin S1.rank)
  bcast_S_S128 : S_.BroadcastsInDim S128 (![] : Fin 0 → Fin S128.rank)
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  inb_S2x1024x128_S1x1024x128_0_0_0 : ∀ a, (![0, 0, 0] : Fin 3 → Nat) a + S1x1024x128.size a ≤ S2x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S2x1024x128_S1x1024x128_1_0_0 : ∀ a, (![1, 0, 0] : Fin 3 → Nat) a + S1x1024x128.size a ≤ S2x1024x128.size a
  scatter_S4x128_S1_S128_0_0_0_0_wf : ScatterDims.WF S4x128 S1 S128 [0] [0] [0] 0
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S65536x128.size a
  hwx0_2 : ∀ i : grid0.Coords, EltTy.bits .f32 = 32 ∨ (Rect.block (s := S65536x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1024x128.size a ≤ S2x65536x128.size a
  hwx0_8 : ∀ i : grid0.Coords, EltTy.bits .f32 = 32 ∨ (Rect.block (s := S2x65536x128) S2x1024x128.size (cc0_transform_8 i) (hinb0_8 i)).WholeWords (EltTy.packing .f32)

variable [Facts₀]

def scatter_S4x128_S1_S128_0_0_0_0 : ScatterDims S4x128 S1 S128 where
  updateWindowDims := [0]
  insertedWindowDims := [0]
  scatterDimsToOperandDims := [0]
  indexVectorDim := 0
  wf := scatter_S4x128_S1_S128_0_0_0_0_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S2x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x128 : Shape := ⟨2, ![65536, 128]⟩
abbrev S4x128x128 : Shape := ⟨3, ![4, 128, 128]⟩
abbrev S4x128 : Shape := ⟨2, ![4, 128]⟩
abbrev S4x128x65536 : Shape := ⟨3, ![4, 128, 65536]⟩
abbrev S4x65536x128 : Shape := ⟨3, ![4, 65536, 128]⟩
abbrev S4x1x128 : Shape := ⟨3, ![4, 1, 128]⟩
abbrev S1x65536x128 : Shape := ⟨3, ![1, 65536, 128]⟩
abbrev S_ : Shape := ⟨0, ![]⟩
abbrev S1x128 : Shape := ⟨2, ![1, 128]⟩
abbrev S128 : Shape := ⟨1, ![128]⟩
abbrev S2x65536x128 : Shape := ⟨3, ![2, 65536, 128]⟩

abbrev nBuf : Space → Nat
  | .hbm => 82
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S4x128x128, .f32⟩
  | .hbm, ⟨4, _⟩ => ⟨S4x128x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128x65536, .f32⟩
  | .hbm, ⟨9, _⟩ => ⟨S4x65536x128, .f32⟩
  | .hbm, ⟨10, _⟩ => ⟨S4x128x65536, .f32⟩
  | .hbm, ⟨11, _⟩ => ⟨S4x65536x128, .f32⟩
  | .hbm, ⟨12, _⟩ => ⟨S4x65536x128, .f32⟩
  | .hbm, ⟨13, _⟩ => ⟨S4x128, .f32⟩
  | .hbm, ⟨14, _⟩ => ⟨S4x1x128, .f32⟩
  | .hbm, ⟨15, _⟩ => ⟨S4x65536x128, .f32⟩
  | .hbm, ⟨16, _⟩ => ⟨S4x65536x128, .f32⟩
  | .hbm, ⟨17, _⟩ => ⟨S1x65536x128, .f32⟩
  | .hbm, ⟨18, _⟩ => ⟨S65536x128, .f32⟩
  | .hbm, ⟨19, _⟩ => ⟨S_, .f32⟩
  | .hbm, ⟨20, _⟩ => ⟨S65536x128, .f32⟩
  | .hbm, ⟨21, _⟩ => ⟨S65536x128, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S65536x128, .f32⟩
  | .hbm, ⟨26, _⟩ => ⟨S65536x128, .f32⟩
  | .hbm, ⟨27, _⟩ => ⟨S65536x128, .f32⟩
  | .hbm, ⟨28, _⟩ => ⟨S65536x128, .f32⟩
  | .hbm, ⟨29, _⟩ => ⟨S_, .f32⟩
  | .hbm, ⟨30, _⟩ => ⟨S65536x128, .f32⟩
  | .hbm, ⟨31, _⟩ => ⟨S65536x128, .f32⟩
  | .hbm, ⟨32, _⟩ => ⟨S_, .f32⟩
  | .hbm, ⟨33, _⟩ => ⟨S65536x128, .f32⟩
  | .hbm, ⟨34, _⟩ => ⟨S65536x128, .f32⟩
  | .hbm, ⟨35, _⟩ => ⟨S1x65536x128, .f32⟩
  | .hbm, ⟨36, _⟩ => ⟨S65536x128, .f32⟩
  | .hbm, ⟨37, _⟩ => ⟨S_, .f32⟩
  | .hbm, ⟨38, _⟩ => ⟨S65536x128, .f32⟩
  | .hbm, ⟨39, _⟩ => ⟨S65536x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S65536x128, .f32⟩
  | .hbm, ⟨44, _⟩ => ⟨S65536x128, .f32⟩
  | .hbm, ⟨45, _⟩ => ⟨S65536x128, .f32⟩
  | .hbm, ⟨46, _⟩ => ⟨S65536x128, .f32⟩
  | .hbm, ⟨47, _⟩ => ⟨S_, .f32⟩
  | .hbm, ⟨48, _⟩ => ⟨S65536x128, .f32⟩
  | .hbm, ⟨49, _⟩ => ⟨S65536x128, .f32⟩
  | .hbm, ⟨50, _⟩ => ⟨S_, .f32⟩
  | .hbm, ⟨51, _⟩ => ⟨S65536x128, .f32⟩
  | .hbm, ⟨52, _⟩ => ⟨S65536x128, .f32⟩
  | .hbm, ⟨53, _⟩ => ⟨S1x65536x128, .f32⟩
  | .hbm, ⟨54, _⟩ => ⟨S65536x128, .f32⟩
  | .hbm, ⟨55, _⟩ => ⟨S_, .f32⟩
  | .hbm, ⟨56, _⟩ => ⟨S65536x128, .f32⟩
  | .hbm, ⟨57, _⟩ => ⟨S65536x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S65536x128, .f32⟩
  | .hbm, ⟨62, _⟩ => ⟨S65536x128, .f32⟩
  | .hbm, ⟨63, _⟩ => ⟨S65536x128, .f32⟩
  | .hbm, ⟨64, _⟩ => ⟨S65536x128, .f32⟩
  | .hbm, ⟨65, _⟩ => ⟨S_, .f32⟩
  | .hbm, ⟨66, _⟩ => ⟨S65536x128, .f32⟩
  | .hbm, ⟨67, _⟩ => ⟨S65536x128, .f32⟩
  | .hbm, ⟨68, _⟩ => ⟨S_, .f32⟩
  | .hbm, ⟨69, _⟩ => ⟨S65536x128, .f32⟩
  | .hbm, ⟨70, _⟩ => ⟨S65536x128, .f32⟩
  | .hbm, ⟨71, _⟩ => ⟨S1x65536x128, .f32⟩
  | .hbm, ⟨72, _⟩ => ⟨S65536x128, .f32⟩
  | .hbm, ⟨73, _⟩ => ⟨S65536x128, .f32⟩
  | .hbm, ⟨74, _⟩ => ⟨S65536x128, .f32⟩
  | .hbm, ⟨75, _⟩ => ⟨S65536x128, .f32⟩
  | .hbm, ⟨76, _⟩ => ⟨S65536x128, .f32⟩
  | .hbm, ⟨77, _⟩ => ⟨S65536x128, .f32⟩
  | .hbm, ⟨78, _⟩ => ⟨S65536x128, .f32⟩
  | .hbm, ⟨79, _⟩ => ⟨S1x65536x128, .f32⟩
  | .hbm, ⟨80, _⟩ => ⟨S1x65536x128, .f32⟩
  | .hbm, ⟨81, _⟩ => ⟨S2x65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]

class Facts₀ : Prop where
  transposes_S4x128x65536_S4x65536x128_0_2_1 : S4x128x65536.Transposes [0, 2, 1] S4x65536x128
  bcast_S4x128_S4x1x128_0_2 : S4x128.BroadcastsInDim S4x1x128 (![0, 2] : Fin 2 → Fin S4x1x128.rank)
  bcast_S4x1x128_S4x65536x128_0_1_2 : S4x1x128.BroadcastsInDim S4x65536x128 (![0, 1, 2] : Fin 3 → Fin S4x65536x128.rank)
  slices_S4x65536x128_S1x65536x128_0_0_0 : S4x65536x128.Slices ![0, 0, 0] S1x65536x128
  shapeCasts_S1x65536x128_S65536x128 : S1x65536x128.ShapeCasts S65536x128
  bcast_S_S65536x128 : S_.BroadcastsInDim S65536x128 (![] : Fin 0 → Fin S65536x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S4x65536x128_S1x65536x128_1_0_0 : S4x65536x128.Slices ![1, 0, 0] S1x65536x128
  slices_S4x128_S1x128_1_0 : S4x128.Slices ![1, 0] S1x128
  slices_S4x65536x128_S1x65536x128_3_0_0 : S4x65536x128.Slices ![3, 0, 0] S1x65536x128
  slices_S4x128_S1x128_3_0 : S4x128.Slices ![3, 0] S1x128
  slices_S4x65536x128_S1x65536x128_2_0_0 : S4x65536x128.Slices ![2, 0, 0] S1x65536x128
  bcast_S65536x128_S1x65536x128_1_2 : S65536x128.BroadcastsInDim S1x65536x128 (![1, 2] : Fin 2 → Fin S1x65536x128.rank)
  concatenates_S1x65536x128_S1x65536x128_S2x65536x128_d0 : Shape.Concatenates [S1x65536x128, S1x65536x128] S2x65536x128 0
  dot_S4x128x128_S65536x128_S4x128x65536_2_1_01_0_n_n_wf : DotDims.WF S4x128x128 S65536x128 S4x128x65536 [2] [1] [0, 1] [0] [] []

variable [Facts₀]

def dot_S4x128x128_S65536x128_S4x128x65536_2_1_01_0_n_n : DotDims S4x128x128 S65536x128 S4x128x65536 where
  lhsContracting := [2]
  rhsContracting := [1]
  lhsNonContracting := [0, 1]
  rhsNonContracting := [0]
  lhsBatch := []
  rhsBatch := []
  wf := dot_S4x128x128_S65536x128_S4x128x65536_2_1_01_0_n_n_wf

class Facts : Prop extends Facts₀ where

variable [Facts]
-- ==== Proof.Spec.lean ====
/-
  The LSTM cell step as ONE function of the argument arrays, index by index, over the extended reals.

  For batch row `b`, hidden unit `h` and gate `g` (0 forget, 1 input, 2 cell, 3 output) the pre-activation is
      z g b h = (Σ_k Wx[g,h,k]·x[b,k] + Σ_k Wh[g,h,k]·hp[b,k]) + (bx[g,h] + bh[g,h]).
  The three sigmoid gates are `σ(2·z g + bg[g,h])`, the cell candidate is `tanh (z 2)`, and
      c' = tanh (z 2) · σ₁ + σ₀ · c,      h' = σ₃ · tanh c'.
  The result stacks `h'` (plane 0) on `c'` (plane 1).

  Also here: the three float patterns the two programs spell (0.0, 1.0 — 2.0 is never evaluated, it is the same
  word on both sides), and the scalar identities that join the two spellings of a gate: a product by 2 taken on
  the other side, the cell gate's `z·1 + 0`, and the logistic function written out as `1 / (1 + e^(-v))`.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- The batch arrays `x`, `h_prev`, `c_prev`: 65536 rows of 128. -/
abbrev SB : Shape := ⟨2, ![65536, 128]⟩
/-- The weights: gate, output unit, input unit. -/
abbrev SW : Shape := ⟨3, ![4, 128, 128]⟩
/-- The per-gate vectors `bx`, `bh`, `bgate`. -/
abbrev SG : Shape := ⟨2, ![4, 128]⟩
/-- The result: `h'` stacked on `c'`. -/
abbrev SO : Shape := ⟨3, ![2, 65536, 128]⟩

/-! ## The constants -/

/-- The pattern of `+0.0` denotes `0`. -/
theorem ofBits_zero : Ideal.ofBits .f32 0x00000000#32 = 0 := Ideal.ofBits_zero_f32

/-- The pattern of `1.0` denotes `1`. -/
theorem ofBits_one : Ideal.ofBits .f32 0x3F800000#32 = 1 := by
  simp [Ideal.ofBits, Ideal.ieee, -EReal.coe_mul]; norm_num

/-- The value the pattern of `2.0` denotes; both programs spell the same word, so it is never evaluated. -/
abbrev two : EReal := Ideal.ofBits .f32 0x40000000#32

/-! ## The function -/

section
variable (x hp cp : FVec Ideal SB .f32) (Wx Wh : FVec Ideal SW .f32) (bx bh bg : FVec Ideal SG .f32)

/-- Gate `g`'s pre-activation at batch row `b`, unit `h`. -/
def pre (g : Fin 4) (b : Fin 65536) (h : Fin 128) : EReal :=
  (∑ k : Fin 128, Wx (ix3 g h k) * x (ix2 b k) + ∑ k : Fin 128, Wh (ix3 g h k) * hp (ix2 b k))
    + (bx (ix2 g h) + bh (ix2 g h))

/-- A sigmoid gate: `σ(2·z + bgate)`. -/
def sgate (g : Fin 4) (b : Fin 65536) (h : Fin 128) : EReal :=
  Ideal.logistic (two * pre x hp Wx Wh bx bh g b h + bg (ix2 g h))

/-- The next cell state. -/
def cNext (b : Fin 65536) (h : Fin 128) : EReal :=
  Ideal.tanh (pre x hp Wx Wh bx bh 2 b h) * sgate x hp Wx Wh bx bh bg 1 b h
    + sgate x hp Wx Wh bx bh bg 0 b h * cp (ix2 b h)

/-- The next hidden state. -/
def hNext (b : Fin 65536) (h : Fin 128) : EReal :=
  sgate x hp Wx Wh bx bh bg 3 b h * Ideal.tanh (cNext x hp cp Wx Wh bx bh bg b h)

/-- The stacked result: plane 0 is `h'`, plane 1 is `c'`. -/
def out : FVec Ideal SO .f32 := fun i =>
  if (i 0).val = 0 then hNext x hp cp Wx Wh bx bh bg (i 1) (i 2) else cNext x hp cp Wx Wh bx bh bg (i 1) (i 2)

end

/-! ## The scalar identities between the two spellings -/

/-- A sigmoid gate's argument with the factor 2 on the right. -/
theorem scale_two (z b : EReal) : z * two + b = two * z + b := by rw [mul_comm]

/-- The cell gate's argument: scaled by `1.0` and shifted by `0.0` it is unchanged — on every extended real. -/
theorem scale_one (z : EReal) : z * Ideal.ofBits .f32 0x3F800000#32 + Ideal.ofBits .f32 0x00000000#32 = z := by
  rw [ofBits_one, ofBits_zero, mul_one, add_zero]

/-- The logistic function written out with the patterns of `1.0`. -/
theorem logistic_expand (v : EReal) :
    Ideal.div (Ideal.ofBits .f32 0x3F800000#32) (Ideal.ofBits .f32 0x3F800000#32 + Ideal.exp (-v)) = Ideal.logistic v := by
  rw [ofBits_one]; rfl

end Cert.Lstm

end
-- ==== Proof.KernelBody.lean ====
/-
  The kernel body's arithmetic, read at an index, over ANY loaded blocks — and, once the blocks are known to be
  pieces of the argument arrays, identified with the cell step of Spec.lean.

  The body computes one [1024, 512] slab `Z` — lane `128·g + q` of row `p` holds gate `g`'s scaled and shifted
  pre-activation for unit `q`:
      Z[p, n] = ((Σ_k x[p,k]·wx[k,n] + Σ_k h[p,k]·wh[k,n]) + b[0,n]) · s[0,n] + d[0,n],
  the two matrix products being plain sums over the 128 inputs (a product into a zero accumulator), the three row
  vectors broadcast down the rows. The four gates are the four 128-lane windows of `Z`; then
      c' = tanh Z₂ · σ Z₁ + σ Z₀ · c,     h' = σ Z₃ · tanh c'.
  When row `p` of the batch blocks is row `row p` of the arrays, `wx[k, 128·g + q] = Wx[g, q, k]` (likewise `wh`),
  `b` is `bx + bh` laid flat, `s` is 2, 2, 1, 2 by gate and `d` is `bgate` with the cell gate's row zeroed, lane
  `128·g + q` of `Z` is `2·z g + bgate[g,q]` for the sigmoid gates (the product commuted) and `z 2` itself for the
  cell gate (`z·1 + 0 = z` on every extended real), so the body's two results are `cNext` and `hNext`.
-/
import proofs.«152622_j9320079033017_1_alg».proof.Proof.Gen.KernelIdeal.Skeleton
import proofs.«152622_j9320079033017_1_alg».proof.Proof.Spec
import Idealize.ShloMosaic.Lib.ValueIdx
import Idealize.ShloMosaic.Lib.Pipeline.Value
import Idealize.ShloMosaic.PureOps.Ideal.Laws

noncomputable section

namespace Cert.Lstm.Body

open Cert.KernelIdeal Cert.KernelIdeal.Gen Idealize.ShloMosaic Idealize.ShloMosaic.ValueIdx Cert.Lstm

/-- Lane `128·g + q` of the 512-lane slab: gate `g`, unit `q`. -/
def lane (g : Fin 4) (q : Fin 128) : Fin 512 := ⟨128 * g.val + q.val, by have := g.isLt; have := q.isLt; omega⟩

theorem lane_val (g : Fin 4) (q : Fin 128) : (lane g q).val = 128 * g.val + q.val := rfl

/-! ## The non-pointwise operations at an index -/

local notation "D" => dot_S1024x128_S128x512_S1024x512_1_0_0_1_n_n

theorem lhs_row (i : S1024x512.Idx) (k : (D).contr.Idx) : ((D).lhsIdx i k 0).val = (i 0).val := by
  unfold DotDims.lhsIdx
  rw [dif_neg (show ¬(0 : Fin S1024x128.rank) ∈ (D).lhsBatch by decide), dif_pos (show (0 : Fin S1024x128.rank) ∈ (D).lhsNonContracting by decide)]
  rfl

theorem rhs_col (i : S1024x512.Idx) (k : (D).contr.Idx) : ((D).rhsIdx i k 1).val = (i 1).val := by
  unfold DotDims.rhsIdx
  rw [dif_neg (show ¬(1 : Fin S128x512.rank) ∈ (D).rhsBatch by decide), dif_pos (show (1 : Fin S128x512.rank) ∈ (D).rhsNonContracting by decide)]
  rfl

/-- The matrix product into a zero accumulator, of a block narrowed to bf16 (the identity on extended reals) and a
    weight slab: entry `(p, n)` is the sum over the 128 inputs. -/
theorem mm_apply (x : Vec Ideal S1024x128 .f32) (w : Vec Ideal S128x512 .bf16) (p : Fin 1024) (n : Fin 512) :
    matmul (F := Ideal) (φ₁ := .bf16) (φ₂ := .bf16) (D) none (truncf .bf16 x bitsLt_bf16_f32) (shapeCast S128x512 w shapeCasts_S128x512_S128x512)
      (constant (F := Ideal) S1024x512 .f32 0x00000000#32) (ix2 p n) = ∑ k : Fin 128, (x (ix2 p k) : EReal) * w (ix2 k n) := by
  rw [shapeCast_self]
  refine (Ideal.matmul_constant_zero_apply (φ₁ := .bf16) (φ₂ := .bf16) (D) none (truncf .bf16 x bitsLt_bf16_f32) w (ix2 p n)).trans ?_
  rw [← Equiv.sum_comp (ValueIdx.contrEquiv1 (D) 128 rfl rfl).symm]
  refine Finset.sum_congr rfl fun k _ => ?_
  have hk := ValueIdx.contrEquiv1_symm_val (D) 128 rfl rfl k
  have el : (D).lhsIdx (ix2 p n) ((ValueIdx.contrEquiv1 (D) 128 rfl rfl).symm k) = ix2 p k := funext fun a => Fin.ext (by
    match a with
    | ⟨0, _⟩ => exact lhs_row _ _
    | ⟨1, _⟩ => exact ((D).lhsIdx_val_of_single rfl _ _).trans hk)
  have er : (D).rhsIdx (ix2 p n) ((ValueIdx.contrEquiv1 (D) 128 rfl rfl).symm k) = ix2 k n := funext fun a => Fin.ext (by
    match a with
    | ⟨0, _⟩ => exact ((D).rhsIdx_val_of_single rfl _ _).trans hk
    | ⟨1, _⟩ => exact rhs_col _ _)
  rw [el, er]
  rfl

/-- A row vector broadcast down the 1024 rows: entry `(p, n)` is the vector's lane `n`. -/
theorem row_apply (v : Vec Ideal S1x512 .f32) (p : Fin 1024) (n : Fin 512) :
    broadcastTo (α := Ideal .f32) S1024x512 (shapeCast (α := Ideal .f32) S1x512 v shapeCasts_S1x512_S1x512) broadcasts_S1x512_S1024x512 (ix2 p n) = v (ix2 0 n) := by
  rw [shapeCast_self]
  exact broadcastTo_apply v broadcasts_S1x512_S1024x512 (ix2 p n) (ix2 0 n) (fun a => match a with
    | ⟨0, _⟩ => by show 0 = if (1 : Nat) = 1 then 0 else _; rw [if_pos rfl]
    | ⟨1, _⟩ => by show n.val = if (512 : Nat) = 1 then 0 else n.val; rw [if_neg (by decide)])

/-- Gate `g`'s 128-lane window of the slab: entry `(p, q)` is the slab's lane `128·g + q`. -/
theorem window_apply (P : FVec Ideal S1024x512 .f32) (off : Fin 2 → Nat) (h : S1024x512.Slices off S1024x128) (g : Fin 4)
    (h0 : off 0 = 0) (h1 : off 1 = 128 * g.val) (p : Fin 1024) (q : Fin 128) :
    extractStridedSlice S1024x128 off P h (ix2 p q) = P (ix2 p (lane g q)) :=
  extractStridedSlice_apply off P h (ix2 p q) (ix2 p (lane g q)) (fun a => match a with
    | ⟨0, _⟩ => by show p.val = off 0 + p.val; omega
    | ⟨1, _⟩ => by show 128 * g.val + q.val = off 1 + q.val; omega)

theorem tanh_apply {s : Shape} (a : FVec Ideal s .f32) (i : s.Idx) : tanh a i = Ideal.tanh (a i) := rfl
theorem logistic_apply {s : Shape} (a : FVec Ideal s .f32) (i : s.Idx) : logistic a i = Ideal.logistic (a i) := rfl

/-! ## The payloads at an index -/

section
variable (x0 x1 x2 : Vec Ideal S1024x128 .f32) (x3 x4 : Vec Ideal S128x512 .bf16) (x5 x6 x7 : Vec Ideal S1x512 .f32)

/-- The slab at `(p, n)`. -/
theorem slab_apply (p : Fin 1024) (n : Fin 512) :
    k0_pay3 x0 x1 x3 x4 x5 x6 x7 (ix2 p n)
      = ((∑ k : Fin 128, (x0 (ix2 p k) : EReal) * x3 (ix2 k n) + ∑ k : Fin 128, (x1 (ix2 p k) : EReal) * x4 (ix2 k n))
          + x5 (ix2 0 n)) * x6 (ix2 0 n) + x7 (ix2 0 n) := by
  unfold k0_pay3
  simp only [addf_apply, mulf_apply, mm_apply, row_apply]

/-- The next cell state's payload at `(p, q)`, over the slab. -/
theorem cell_apply (p : Fin 1024) (q : Fin 128) :
    k0_pay4 x0 x1 x2 x3 x4 x5 x6 x7 (ix2 p q)
      = Ideal.tanh (k0_pay3 x0 x1 x3 x4 x5 x6 x7 (ix2 p (lane 2 q))) * Ideal.logistic (k0_pay3 x0 x1 x3 x4 x5 x6 x7 (ix2 p (lane 1 q)))
        + Ideal.logistic (k0_pay3 x0 x1 x3 x4 x5 x6 x7 (ix2 p (lane 0 q))) * x2 (ix2 p q) := by
  unfold k0_pay4
  simp only [addf_apply, mulf_apply, tanh_apply, logistic_apply]
  rw [window_apply _ _ slices_S1024x512_o0_256_S1024x128 2 rfl rfl, window_apply _ _ slices_S1024x512_o0_128_S1024x128 1 rfl rfl,
    window_apply _ _ slices_S1024x512_o0_0_S1024x128 0 rfl rfl]

/-- The next hidden state's payload at `(p, q)`, over the slab and the cell payload. -/
theorem hidden_apply (p : Fin 1024) (q : Fin 128) :
    k0_pay5 x0 x1 x2 x3 x4 x5 x6 x7 (ix2 p q)
      = Ideal.logistic (k0_pay3 x0 x1 x3 x4 x5 x6 x7 (ix2 p (lane 3 q))) * Ideal.tanh (k0_pay4 x0 x1 x2 x3 x4 x5 x6 x7 (ix2 p q)) := by
  unfold k0_pay5
  simp only [mulf_apply, tanh_apply, logistic_apply]
  rw [window_apply _ _ slices_S1024x512_o0_384_S1024x128 3 rfl rfl]

end

end Cert.Lstm.Body

end
-- ==== Proof.KernelGates.lean ====
/-
  The kernel body's two results are the cell step, once its loaded blocks are pieces of the argument arrays.

  `Blocks` states what the eight loaded blocks are: rows of the three batch blocks are rows `row p` of `x`, `h_prev`,
  `c_prev`; lane `128·g + q` of the two weight slabs at input `k` is `Wx[g, q, k]`, `Wh[g, q, k]`; of the bias row it is
  `bx[g,q] + bh[g,q]`; of the scale row the `g`-th of the four scale words (2, 2, 1, 2); of the shift row `bgate[g,q]`,
  but `0` for the cell gate. Under it lane `128·g + q` of the slab is gate `g`'s pre-activation times its scale plus
  its shift (the products `x·w` commuted to `w·x` inside the sums): `2·z + bgate` for a sigmoid gate, `z` for the cell gate.
-/
import proofs.«152622_j9320079033017_1_alg».proof.Proof.KernelBody

noncomputable section

namespace Cert.Lstm.Body

open Cert.KernelIdeal Cert.KernelIdeal.Gen Idealize.ShloMosaic Idealize.ShloMosaic.ValueIdx Cert.Lstm

variable (x0 x1 x2 : Vec Ideal S1024x128 .f32) (x3 x4 : Vec Ideal S128x512 .bf16) (x5 x6 x7 : Vec Ideal S1x512 .f32)
variable (X HP CP : FVec Ideal SB .f32) (WX WH : FVec Ideal SW .f32) (BX BH BG : FVec Ideal SG .f32)
variable (row : Fin 1024 → Fin 65536)

/-- What the eight loaded blocks hold, in terms of the argument arrays. -/
structure Blocks : Prop where
  h0 : ∀ (p : Fin 1024) (k : Fin 128), x0 (ix2 p k) = X (ix2 (row p) k)
  h1 : ∀ (p : Fin 1024) (k : Fin 128), x1 (ix2 p k) = HP (ix2 (row p) k)
  h2 : ∀ (p : Fin 1024) (q : Fin 128), x2 (ix2 p q) = CP (ix2 (row p) q)
  h3 : ∀ (k : Fin 128) (g : Fin 4) (q : Fin 128), x3 (ix2 k (lane g q)) = WX (ix3 g q k)
  h4 : ∀ (k : Fin 128) (g : Fin 4) (q : Fin 128), x4 (ix2 k (lane g q)) = WH (ix3 g q k)
  h5 : ∀ (g : Fin 4) (q : Fin 128), x5 (ix2 0 (lane g q)) = BX (ix2 g q) + BH (ix2 g q)
  h6 : ∀ (g : Fin 4) (q : Fin 128), x6 (ix2 0 (lane g q)) = Ideal.ofBits .f32 (lit0 g)
  h7 : ∀ (g : Fin 4) (q : Fin 128), x7 (ix2 0 (lane g q)) = if g.val = 2 then Ideal.ofBits .f32 0x00000000#32 else BG (ix2 g q)

variable {x0 x1 x2 x3 x4 x5 x6 x7 X HP CP WX WH BX BH BG row}
variable (hb : Blocks x0 x1 x2 x3 x4 x5 x6 x7 X HP CP WX WH BX BH BG row)
include hb

/-- Lane `128·g + q` of the slab: the pre-activation, scaled and shifted. -/
theorem slab_lane (p : Fin 1024) (g : Fin 4) (q : Fin 128) :
    k0_pay3 x0 x1 x3 x4 x5 x6 x7 (ix2 p (lane g q))
      = pre X HP WX WH BX BH g (row p) q * Ideal.ofBits .f32 (lit0 g)
        + (if g.val = 2 then Ideal.ofBits .f32 0x00000000#32 else BG (ix2 g q)) := by
  have e0 : ∑ k : Fin 128, (x0 (ix2 p k) : EReal) * x3 (ix2 k (lane g q)) = ∑ k : Fin 128, WX (ix3 g q k) * X (ix2 (row p) k) :=
    Finset.sum_congr rfl fun k _ => by rw [hb.h0, hb.h3, mul_comm]
  have e1 : ∑ k : Fin 128, (x1 (ix2 p k) : EReal) * x4 (ix2 k (lane g q)) = ∑ k : Fin 128, WH (ix3 g q k) * HP (ix2 (row p) k) :=
    Finset.sum_congr rfl fun k _ => by rw [hb.h1, hb.h4, mul_comm]
  rw [slab_apply, e0, e1, hb.h5, hb.h6, hb.h7]
  rfl

/-- A sigmoid gate's lane: `2·z + bgate`. -/
theorem slab_sig (p : Fin 1024) (g : Fin 4) (hg : g.val ≠ 2) (q : Fin 128) :
    k0_pay3 x0 x1 x3 x4 x5 x6 x7 (ix2 p (lane g q)) = two * pre X HP WX WH BX BH g (row p) q + BG (ix2 g q) := by
  rw [slab_lane hb, if_neg hg]
  have hl : lit0 g = 0x40000000#32 := by
    match g, hg with
    | ⟨0, _⟩, _ => rfl
    | ⟨1, _⟩, _ => rfl
    | ⟨2, _⟩, h => exact absurd rfl h
    | ⟨3, _⟩, _ => rfl
  rw [hl]
  exact scale_two _ _

/-- The cell gate's lane: `z` itself. -/
theorem slab_cell (p : Fin 1024) (q : Fin 128) :
    k0_pay3 x0 x1 x3 x4 x5 x6 x7 (ix2 p (lane 2 q)) = pre X HP WX WH BX BH 2 (row p) q := by
  rw [slab_lane hb, if_pos (show ((2 : Fin 4) : Nat) = 2 from rfl)]
  exact scale_one _

/-- The body's cell payload is the next cell state. -/
theorem cell_eq (p : Fin 1024) (q : Fin 128) :
    k0_pay4 x0 x1 x2 x3 x4 x5 x6 x7 (ix2 p q) = cNext X HP CP WX WH BX BH BG (row p) q := by
  rw [cell_apply, slab_cell hb, slab_sig hb p 1 (by decide), slab_sig hb p 0 (by decide), hb.h2]
  rfl

/-- The body's hidden payload is the next hidden state. -/
theorem hidden_eq (p : Fin 1024) (q : Fin 128) :
    k0_pay5 x0 x1 x2 x3 x4 x5 x6 x7 (ix2 p q) = hNext X HP CP WX WH BX BH BG (row p) q := by
  rw [hidden_apply, slab_sig hb p 3 (by decide), cell_eq hb]
  rfl

end Cert.Lstm.Body

end
-- ==== Proof.LibScatterSet.lean ====
/-
  A host scatter whose body keeps the update (`x.at[…].set(v)`), read at one index of the operand.

  The scatter is a left fold over the update's elements in row-major order; the step for update element `n` replaces
  the operand's element at the result index `n` lands on, when it lands inside the operand, and changes nothing
  otherwise. Read at ONE operand index `i`:
  • if no update element lands on `i`, the scatter leaves the operand's element there (`scatter_set_apply_of_miss`);
  • if some update element lands on `i`, and every update element that lands on `i` carries the same value `V`,
    the scatter leaves `V` there (`scatter_set_apply_of_hit`) — in particular when one element lands there, or when
    the update is a constant vector.
  Both follow from one induction over a fold whose step touches at most one index.
-/
import Idealize.ShloMosaic.PureOps.ShapeOps

namespace Cert.LibScatterSet

open Idealize.ShloMosaic

section Fold
variable {ι β γ : Type} (ρ : ι → Option β) (v : ι → γ) (step : (β → γ) → ι → (β → γ)) (i : β)

/-- A fold none of whose steps lands on `i` leaves the start's value at `i`. -/
theorem foldl_miss
    (hsome : ∀ r n j, ρ n = some j → j ≠ i → step r n i = r i)
    (hnone : ∀ r n, ρ n = none → step r n i = r i) :
    ∀ (l : List ι) (r : β → γ), (∀ n ∈ l, ρ n ≠ some i) → l.foldl step r i = r i
  | [], _, _ => rfl
  | a :: l, r, h => by
    rw [List.foldl_cons, foldl_miss hsome hnone l _ (fun n hn => h n (List.mem_cons_of_mem _ hn))]
    cases hρ : ρ a with
    | none => exact hnone r a hρ
    | some j => exact hsome r a j hρ (fun e => h a (List.mem_cons_self ..) (by rw [hρ, e]))

/-- A fold in which every step landing on `i` writes `V`, started at `V` there or with some step landing there,
    ends with `V` at `i`. -/
theorem foldl_hit (V : γ)
    (hhere : ∀ r n, ρ n = some i → step r n i = v n)
    (hsome : ∀ r n j, ρ n = some j → j ≠ i → step r n i = r i)
    (hnone : ∀ r n, ρ n = none → step r n i = r i) :
    ∀ (l : List ι) (r : β → γ), (∀ n ∈ l, ρ n = some i → v n = V) → (r i = V ∨ ∃ n ∈ l, ρ n = some i) →
      l.foldl step r i = V
  | [], r, _, h => by
    rcases h with h | ⟨n, hn, _⟩
    · exact h
    · cases hn
  | a :: l, r, hV, h => by
    rw [List.foldl_cons]
    refine foldl_hit V hhere hsome hnone l _ (fun n hn => hV n (List.mem_cons_of_mem _ hn)) ?_
    by_cases ha : ρ a = some i
    · exact Or.inl ((hhere r a ha).trans (hV a (List.mem_cons_self ..) ha))
    · have hstep : step r a i = r i := by
        cases hρ : ρ a with
        | none => exact hnone r a hρ
        | some j => exact hsome r a j hρ (fun e => ha (by rw [hρ, e]))
      rcases h with h | ⟨n, hn, hρn⟩
      · exact Or.inl (hstep.trans h)
      · rcases List.mem_cons.mp hn with rfl | hn'
        · exact absurd hρn ha
        · exact Or.inr ⟨n, hn', hρn⟩

end Fold

section Scatter
variable {α : Type} {s si u : Shape} {w : Nat}

/-- No update element lands on `i`: the operand's element stays. -/
theorem scatter_set_apply_of_miss (d : ScatterDims s si u) (x : s.Idx → α) (idx : IVec si w) (upd : u.Idx → α) (i : s.Idx)
    (hmiss : ∀ j : u.Idx, d.resultIdx? j idx ≠ some i) :
    Host.scatter d (fun _ b => b) x idx upd i = x i := by
  unfold Host.scatter
  refine foldl_miss (fun n => d.resultIdx? (u.rowMajor.symm n) idx) _ i ?_ ?_ _ x (fun n _ => hmiss _)
  · intro r n j h hne
    show (match d.resultIdx? (u.rowMajor.symm n) idx with
      | some i => fun i' => if i' = i then (fun _ b => b) (r i) (upd (u.rowMajor.symm n)) else r i'
      | none => r) i = r i
    rw [h]
    exact if_neg (fun e => hne e.symm)
  · intro r n h
    show (match d.resultIdx? (u.rowMajor.symm n) idx with
      | some i => fun i' => if i' = i then (fun _ b => b) (r i) (upd (u.rowMajor.symm n)) else r i'
      | none => r) i = r i
    rw [h]

/-- Some update element lands on `i`, and all that do carry `V`: the scatter leaves `V` there. -/
theorem scatter_set_apply_of_hit (d : ScatterDims s si u) (x : s.Idx → α) (idx : IVec si w) (upd : u.Idx → α) (i : s.Idx) (V : α)
    (hV : ∀ j : u.Idx, d.resultIdx? j idx = some i → upd j = V)
    (hhit : ∃ j : u.Idx, d.resultIdx? j idx = some i) :
    Host.scatter d (fun _ b => b) x idx upd i = V := by
  unfold Host.scatter
  obtain ⟨j, hj⟩ := hhit
  refine foldl_hit (fun n => d.resultIdx? (u.rowMajor.symm n) idx) (fun n => upd (u.rowMajor.symm n)) _ i V ?_ ?_ ?_ _ x
    (fun n _ h => hV _ h) (Or.inr ⟨u.rowMajor j, List.mem_finRange _, by rw [Equiv.symm_apply_apply]; exact hj⟩)
  · intro r n h
    show (match d.resultIdx? (u.rowMajor.symm n) idx with
      | some i => fun i' => if i' = i then (fun _ b => b) (r i) (upd (u.rowMajor.symm n)) else r i'
      | none => r) i = _
    rw [h]
    exact if_pos rfl
  · intro r n k h hne
    show (match d.resultIdx? (u.rowMajor.symm n) idx with
      | some i => fun i' => if i' = i then (fun _ b => b) (r i) (upd (u.rowMajor.symm n)) else r i'
      | none => r) i = r i
    rw [h]
    exact if_neg (fun e => hne e.symm)
  · intro r n h
    show (match d.resultIdx? (u.rowMajor.symm n) idx with
      | some i => fun i' => if i' = i then (fun _ b => b) (r i) (upd (u.rowMajor.symm n)) else r i'
      | none => r) i = r i
    rw [h]

end Scatter

end Cert.LibScatterSet
-- ==== Proof.KernelHost.lean ====
/-
  The five arrays the host builds for the kernel before the call, each read at an index of the slab's lanes.

  The call's weight operands are the weights transposed to [input, gate, unit] and laid flat as [128, 512] (then
  narrowed to bf16, the identity on extended reals): entry `(k, 128·g + q)` is `W[g, q, k]`. Its three row vectors
  are [4, 128] arrays laid flat as [1, 512]: `bx + bh`; the four scale words 2, 2, 1, 2 broadcast along the units; and
  `bgate` with row 2 overwritten by zeros — a scatter of a zero vector of 128 at the index 2, whose update element `j`
  lands on `(2, j)`: an entry of row 2 is hit (by zeros only), an entry of another row by nothing.
-/
import proofs.«152622_j9320079033017_1_alg».proof.Proof.Gen.KernelIdeal.Frame
import proofs.«152622_j9320079033017_1_alg».proof.Proof.KernelBody
import proofs.«152622_j9320079033017_1_alg».proof.Proof.LibScatterSet
import Idealize.ShloMosaic.Lib.StableHlo.Run
import Idealize.ShloMosaic.Lib.Pipeline.Value
import Idealize.ShloMosaic.Lib.ValueIdx

noncomputable section

namespace Cert.Lstm.HostSide

open Cert.KernelIdeal Cert.KernelIdeal.Gen Idealize.ShloMosaic Idealize.ShloMosaic.TcCoe Idealize.SL.Sem
open Idealize.ShloMosaic.StableHlo Idealize.ShloMosaic.ValueIdx Cert.Lstm Cert.Lstm.Body

variable (m : (ℓ : Loc nD τ sig) → Buf (Elt Ideal) ℓ) (c : Dev nD)

/-! ## The arrays as terms of the arguments -/

theorem V_wx : (V m c main_v2 : S128x512.Idx → EReal)
    = truncf (F := Ideal) .bf16 (shapeCast S128x512 (transpose S128x4x128 [2, 0, 1] (m ((c : Thread nD τ).loc main_arg3)) transposes_S4x128x128_S128x4x128_2_0_1) shapeCasts_S128x4x128_S128x512) bitsLt_bf16_f32 := by
  dsimp only [V, hostOps0]; after_results; rfl

theorem V_wh : (V m c main_v5 : S128x512.Idx → EReal)
    = truncf (F := Ideal) .bf16 (shapeCast S128x512 (transpose S128x4x128 [2, 0, 1] (m ((c : Thread nD τ).loc main_arg4)) transposes_S4x128x128_S128x4x128_2_0_1) shapeCasts_S128x4x128_S128x512) bitsLt_bf16_f32 := by
  dsimp only [V, hostOps0]; after_results; rfl

theorem V_bias : (V m c main_v7 : S1x512.Idx → EReal)
    = shapeCast S1x512 (addf (F := Ideal) (φ := .f32) (m ((c : Thread nD τ).loc main_arg5)) (m ((c : Thread nD τ).loc main_arg6))) shapeCasts_S4x128_S1x512 := by
  dsimp only [V, hostOps0]; after_results; rfl

theorem V_scale : (V m c main_v10 : S1x512.Idx → EReal)
    = shapeCast S1x512 (broadcastInDim S4x128 ![0, 1] bcast_S4x1_S4x128_0_1
        (broadcastInDim S4x1 ![0] bcast_S4_S4x1_0 (fun i : S4.Idx => (FloatOps.ofBits (F := Ideal) .f32 (lit0 (S4.rowMajor i)) : EReal)))) shapeCasts_S4x128_S1x512 := by
  dsimp only [V, hostOps0]; after_results; rfl

/-- The scatter's index operand: the scalar 2 as a vector of one. -/
abbrev two_idx : IVec S1 32 := broadcastInDim S1 ![] bcast_S_S1 (constantI S_ 32 2#32)
/-- The scatter's update: 128 zeros. -/
abbrev zeros : S128.Idx → EReal := broadcastInDim S128 ![] bcast_S_S128 (constant (F := Ideal) S_ .f32 0x00000000#32)

theorem V_shift : (V m c main_v14 : S1x512.Idx → EReal)
    = shapeCast S1x512 (Host.scatter scatter_S4x128_S1_S128_0_0_0_0 (fun _ b => b) (m ((c : Thread nD τ).loc main_arg7)) two_idx zeros) shapeCasts_S4x128_S1x512 := by
  dsimp only [V, hostOps0]; after_results; rfl

/-! ## Read at a lane -/

/-- A [4, 128] array laid flat as [1, 512]: lane `128·g + q` is entry `(g, q)`. -/
theorem flat_apply (v : S4x128.Idx → EReal) (g : Fin 4) (q : Fin 128) :
    shapeCast S1x512 v shapeCasts_S4x128_S1x512 (ix2 0 (lane g q)) = v (ix2 g q) :=
  shapeCast_apply v shapeCasts_S4x128_S1x512 (ix2 0 (lane g q)) (ix2 g q)
    (by rw [Shape.rowMajor_val_two, Shape.rowMajor_val_two]; show g.val * 128 + q.val = 0 * 512 + (128 * g.val + q.val); omega)

/-- A weight array transposed to [input, gate, unit] and laid flat: entry `(k, 128·g + q)` is `W[g, q, k]`. -/
theorem slabOf_apply (W : S4x128x128.Idx → EReal) (k : Fin 128) (g : Fin 4) (q : Fin 128) :
    shapeCast S128x512 (transpose S128x4x128 [2, 0, 1] W transposes_S4x128x128_S128x4x128_2_0_1) shapeCasts_S128x4x128_S128x512 (ix2 k (lane g q))
      = W (ix3 g q k) := by
  rw [shapeCast_apply _ shapeCasts_S128x4x128_S128x512 (ix2 k (lane g q)) (ix3 k g q)
    (by rw [Shape.rowMajor_val_three, Shape.rowMajor_val_two]; show (k.val * 4 + g.val) * 128 + q.val = k.val * 512 + (128 * g.val + q.val); omega)]
  exact transpose_apply [2, 0, 1] W transposes_S4x128x128_S128x4x128_2_0_1 (ix3 k g q) (ix3 g q k) (fun b => match b with
    | ⟨0, _⟩ => rfl
    | ⟨1, _⟩ => rfl
    | ⟨2, _⟩ => rfl)

theorem wx_apply (k : Fin 128) (g : Fin 4) (q : Fin 128) :
    (V m c main_v2 (ix2 k (lane g q)) : EReal) = m ((c : Thread nD τ).loc main_arg3) (ix3 g q k) := by
  rw [V_wx]; exact slabOf_apply _ k g q

theorem wh_apply (k : Fin 128) (g : Fin 4) (q : Fin 128) :
    (V m c main_v5 (ix2 k (lane g q)) : EReal) = m ((c : Thread nD τ).loc main_arg4) (ix3 g q k) := by
  rw [V_wh]; exact slabOf_apply _ k g q

theorem bias_apply (g : Fin 4) (q : Fin 128) :
    (V m c main_v7 (ix2 0 (lane g q)) : EReal)
      = FloatOps.addf (F := Ideal) (φ := .f32) (m ((c : Thread nD τ).loc main_arg5) (ix2 g q)) (m ((c : Thread nD τ).loc main_arg6) (ix2 g q)) := by
  rw [V_bias, flat_apply]; rfl

theorem scale_apply (g : Fin 4) (q : Fin 128) :
    (V m c main_v10 (ix2 0 (lane g q)) : EReal) = Ideal.ofBits .f32 (lit0 g) := by
  rw [V_scale, flat_apply]
  rw [broadcastInDim_apply _ bcast_S4x1_S4x128_0_1 _ (ix2 g q) (ix2 g (0 : Fin 1)) (fun a => match a with
    | ⟨0, _⟩ => by show g.val = if (4 : Nat) = 1 then 0 else g.val; rw [if_neg (by decide)]
    | ⟨1, _⟩ => by show 0 = if (1 : Nat) = 1 then 0 else q.val; rw [if_pos rfl])]
  rw [broadcastInDim_apply _ bcast_S4_S4x1_0 _ (ix2 g (0 : Fin 1)) (ix1 g) (fun a => match a with
    | ⟨0, _⟩ => by show g.val = if (4 : Nat) = 1 then 0 else g.val; rw [if_neg (by decide)])]
  have hg : S4.rowMajor (ix1 g) = g := Fin.ext (Shape.rowMajor_val_one _)
  show Ideal.ofBits .f32 (lit0 (S4.rowMajor (ix1 g))) = _
  rw [hg]

/-! ## The scatter -/

local notation "Sc" => scatter_S4x128_S1_S128_0_0_0_0

/-- Update element `j` lands on `(2, j)`. -/
theorem landing (j : S128.Idx) : (Sc).resultIdx? j two_idx = some (ix2 2 (j 0)) := by
  have hs0 : (Sc).start j two_idx 0 = 2 := by
    unfold ScatterDims.start
    rw [dif_pos (show (0 : Fin S4x128.rank) ∈ (Sc).scatterDimsToOperandDims by decide)]
    rfl
  have hs1 : (Sc).start j two_idx 1 = 0 := by
    unfold ScatterDims.start
    rw [dif_neg (show ¬(1 : Fin S4x128.rank) ∈ (Sc).scatterDimsToOperandDims by decide)]
  have hw0 : (Sc).window j 0 = 0 := by
    unfold ScatterDims.window
    rw [dif_neg (show ¬(0 : Fin S4x128.rank) ∈ (Sc).sKept by decide)]
  have hw1 : (Sc).window j 1 = (j 0).val := by
    unfold ScatterDims.window
    rw [dif_pos (show (1 : Fin S4x128.rank) ∈ (Sc).sKept by decide)]
    rfl
  have hj : (j 0).val < 128 := (j 0).isLt
  have hall : ∀ a, 0 ≤ (Sc).start j two_idx a + (Sc).window j a ∧ (Sc).start j two_idx a + (Sc).window j a < S4x128.size a := by
    refine Fin.forall_fin_two.2 ⟨?_, ?_⟩
    · rw [hs0, hw0]; decide
    · rw [hs1, hw1]; show 0 ≤ (0 : Int) + ((j 0).val : Int) ∧ (0 : Int) + ((j 0).val : Int) < 128; omega
  unfold ScatterDims.resultIdx?
  rw [dif_pos hall]
  refine congrArg some (funext fun a => Fin.ext ?_)
  match a with
  | ⟨0, _⟩ => show ((Sc).start j two_idx 0 + (Sc).window j 0).toNat = 2; rw [hs0, hw0]; rfl
  | ⟨1, _⟩ => show ((Sc).start j two_idx 1 + (Sc).window j 1).toNat = (j 0).val; rw [hs1, hw1]; omega

theorem shift_apply (g : Fin 4) (q : Fin 128) :
    (V m c main_v14 (ix2 0 (lane g q)) : EReal)
      = if g.val = 2 then Ideal.ofBits .f32 0x00000000#32 else m ((c : Thread nD τ).loc main_arg7) (ix2 g q) := by
  rw [V_shift, flat_apply]
  by_cases hg : g.val = 2
  · rw [if_pos hg]
    have hg' : g = 2 := Fin.ext hg
    refine Cert.LibScatterSet.scatter_set_apply_of_hit (Sc) _ two_idx zeros (ix2 g q) _ (fun j _ => rfl) ⟨ix1 q, ?_⟩
    rw [landing, hg']
    rfl
  · rw [if_neg hg]
    refine Cert.LibScatterSet.scatter_set_apply_of_miss (Sc) _ two_idx zeros (ix2 g q) (fun j h => hg ?_)
    rw [landing] at h
    have h2 := congrArg (fun i : S4x128.Idx => (i 0).val) (Option.some.inj h)
    exact (show 2 = g.val from h2).symm

end Cert.Lstm.HostSide

end
-- ==== Proof.KernelValue.lean ====
/-
  From the kernel's blocks to its result array: after the run the [2, 65536, 128] result holds the cell step of the
  argument arrays, `h'` on plane 0 and `c'` on plane 1.

  Grid point `t` (of 64) stages rows `1024·t … 1024·t + 1023` of the three batch arrays and the whole of the five
  host-built operands, and writes back the [2, 1024, 128] block at rows `1024·t …` of both planes. The body stores
  the hidden payload on plane 0 and the cell payload on plane 1 of its buffer; each payload at `(p, q)` is the cell
  step at row `1024·t + p`, unit `q` (KernelGates.lean), so the block written back is the block of the whole
  result; row `r` is covered by point `r / 1024`.
-/
import proofs.«152622_j9320079033017_1_alg».proof.Proof.Gen.KernelIdeal.Value
import proofs.«152622_j9320079033017_1_alg».proof.Proof.KernelGates
import proofs.«152622_j9320079033017_1_alg».proof.Proof.KernelHost

set_option maxRecDepth 16384

noncomputable section

namespace Cert.Lstm.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.Lstm Cert.Lstm.Body Cert.Lstm.HostSide

theorem hz2 : (![0, 0] : Fin 2 → Nat) = fun _ => 0 := funext fun a => by fin_cases a <;> rfl

/-! ## The body's buffer, index by index -/

section Piece
variable {x0 x1 x2 : Vec Ideal S1024x128 .f32} {x3 x4 : Vec Ideal S128x512 .bf16} {x5 x6 x7 : Vec Ideal S1x512 .f32}
variable {X HP CP : FVec Ideal SB .f32} {WX WH : FVec Ideal SW .f32} {BX BH BG : FVec Ideal SG .f32}
variable {row : Fin 1024 → Fin 65536}
variable (hb : Blocks x0 x1 x2 x3 x4 x5 x6 x7 X HP CP WX WH BX BH BG row)
include hb

/-- The store on plane 1 carries the next cell state. -/
theorem cell_piece (x : S1x1024x128.Idx) :
    k0_pay2 (k0_pay4 x0 x1 x2 x3 x4 x5 x6 x7) x
      = out X HP CP WX WH BX BH BG (ix3 ((r0_4.emb x) 0) (row ((r0_4.emb x) 1)) ((r0_4.emb x) 2)) := by
  have hx0 : (x 0).val = 0 := by have h : (x 0).val < 1 := (x 0).isLt; omega
  unfold k0_pay2
  rw [shapeCast_apply _ shapeCasts_S1024x128_S1x1024x128 x (ix2 (x 1) (x 2))
    (by rw [Shape.rowMajor_val_two, Shape.rowMajor_val_three]
        show (x 1).val * 128 + (x 2).val = ((x 0).val * 1024 + (x 1).val) * 128 + (x 2).val
        omega)]
  refine (cell_eq hb (x 1) (x 2)).trans ?_
  have e1 : (r0_4.emb x) 1 = x 1 := Fin.ext (by show 0 + 1 * (x 1).val = (x 1).val; omega)
  have e2 : (r0_4.emb x) 2 = x 2 := Fin.ext (by show 0 + 1 * (x 2).val = (x 2).val; omega)
  have e0 : ((r0_4.emb x) 0).val = 1 := by show 1 + 1 * (x 0).val = 1; omega
  rw [e1, e2]
  unfold out
  exact (if_neg (by show ¬((r0_4.emb x) 0).val = 0; omega)).symm

/-- The store on plane 0 carries the next hidden state. -/
theorem hidden_piece (x : S1x1024x128.Idx) :
    k0_pay1 (k0_pay5 x0 x1 x2 x3 x4 x5 x6 x7) x
      = out X HP CP WX WH BX BH BG (ix3 ((r0_3.emb x) 0) (row ((r0_3.emb x) 1)) ((r0_3.emb x) 2)) := by
  have hx0 : (x 0).val = 0 := by have h : (x 0).val < 1 := (x 0).isLt; omega
  unfold k0_pay1
  rw [shapeCast_apply _ shapeCasts_S1024x128_S1x1024x128 x (ix2 (x 1) (x 2))
    (by rw [Shape.rowMajor_val_two, Shape.rowMajor_val_three]
        show (x 1).val * 128 + (x 2).val = ((x 0).val * 1024 + (x 1).val) * 128 + (x 2).val
        omega)]
  refine (hidden_eq hb (x 1) (x 2)).trans ?_
  have e1 : (r0_3.emb x) 1 = x 1 := Fin.ext (by show 0 + 1 * (x 1).val = (x 1).val; omega)
  have e2 : (r0_3.emb x) 2 = x 2 := Fin.ext (by show 0 + 1 * (x 2).val = (x 2).val; omega)
  have e0 : ((r0_3.emb x) 0).val = 0 := by show 0 + 1 * (x 0).val = 0; omega
  rw [e1, e2]
  unfold out
  exact (if_pos (by show ((r0_3.emb x) 0).val = 0; omega)).symm

/-- The body's output buffer at `y = (s, p, q)` is the result at `(s, row p, q)`. -/
theorem out_block (y : S2x1024x128.Idx) :
    out0_8 (F := Ideal) x0 x1 x2 x3 x4 x5 x6 x7 y = out X HP CP WX WH BX BH BG (ix3 (y 0) (row (y 1)) (y 2)) := by
  unfold out0_8
  simp only [View.ld_unit_zero (S := S1024x128) hz2, View.ld_unit_zero (S := S128x512) hz2, View.ld_unit_zero (S := S1x512) hz2]
  refine View.canon_apply_of_pieces (Val := Elt Ideal) (fun y : S2x1024x128.Idx => (out X HP CP WX WH BX BH BG (ix3 (y 0) (row (y 1)) (y 2)) : Elt Ideal EltTy.f32)) _
    (fun p hp x => ?_) y (cover0_8 _ _ y)
  simp only [List.mem_cons, List.mem_nil_iff, or_false] at hp
  rcases hp with rfl | rfl
  · exact cell_piece hb x
  · exact hidden_piece hb x

end Piece

variable (m : (ℓ : Loc nD τ sig) → Buf (Elt Ideal) ℓ) (ρ : Dev nD → PrngReg)

/-! ## The blocks at a grid point -/

/-- Row `p` of point `t`'s batch blocks is row `1024·t + p` of the arrays. -/
def rowAt (t : Fin cfg0.N) (p : Fin 1024) : Fin 65536 :=
  ⟨t.val * 1024 + p.val, by have := t.isLt; have h : cfg0.N = 64 := N_0; have := p.isLt; omega⟩

/-- The printed index maps over the 64 points: the batch windows and the result follow the point along the rows, the
    other five windows stay at block 0. -/
theorem idx_batch : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem idx_result : ∀ t : Fin cfg0.N,
    win0_8.index t (0 : Fin 3) = 0 ∧ win0_8.index t (1 : Fin 3) = t.val ∧ win0_8.index t (2 : Fin 3) = 0 :=
  (by decide +kernel : ∀ t : Fin grid0.N, _)

variable (c : Dev nD) (t : Fin cfg0.N)

theorem blk_x (p : Fin 1024) (k : Fin 128) :
    (iblk m c 0 t : Vec Ideal S1024x128 .f32) (ix2 p k) = (m ((c : Thread nD τ).loc main_arg0)) (ix2 (rowAt t p) k) := by
  obtain ⟨e0, e1, -⟩ := idx_batch t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 128 + 1 * k.val = k.val; rw [e1]; omega

theorem blk_h (p : Fin 1024) (k : Fin 128) :
    (iblk m c 1 t : Vec Ideal S1024x128 .f32) (ix2 p k) = (m ((c : Thread nD τ).loc main_arg1)) (ix2 (rowAt t p) k) := by
  obtain ⟨-, -, e0, e1, -⟩ := idx_batch t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 128 + 1 * k.val = k.val; rw [e1]; omega

theorem blk_c (p : Fin 1024) (k : Fin 128) :
    (iblk m c 2 t : Vec Ideal S1024x128 .f32) (ix2 p k) = (m ((c : Thread nD τ).loc main_arg2)) (ix2 (rowAt t p) k) := by
  obtain ⟨-, -, -, -, e0, e1⟩ := idx_batch t
  show V m c main_arg2 (((cfg0.win 2).blk t).view.emb (ix2 p k)) = _
  rw [V_main_arg2]
  refine congrArg _ (funext fun a => Fin.ext ?_)
  match a with
  | ⟨0, _⟩ => show win0_2.index t (0 : Fin 2) * 1024 + 1 * p.val = t.val * 1024 + p.val; rw [e0]; omega
  | ⟨1, _⟩ => show win0_2.index t (1 : Fin 2) * 128 + 1 * k.val = k.val; rw [e1]; omega

theorem blk_wx (k : Fin 128) (g : Fin 4) (q : Fin 128) :
    (iblk m c 3 t : Vec Ideal S128x512 .bf16) (ix2 k (lane g q)) = (m ((c : Thread nD τ).loc main_arg3)) (ix3 g q k) := by
  obtain ⟨e0, e1, -⟩ := idx_fixed t
  show V m c main_v2 (((cfg0.win 3).blk t).view.emb (ix2 k (lane g q))) = _
  have he : ((cfg0.win 3).blk t).view.emb (ix2 k (lane g q)) = ix2 k (lane g q) := funext fun a => Fin.ext (by
    match a with
    | ⟨0, _⟩ => show win0_3.index t (0 : Fin 2) * 128 + 1 * k.val = k.val; rw [e0]; omega
    | ⟨1, _⟩ => show win0_3.index t (1 : Fin 2) * 512 + 1 * (lane g q).val = (lane g q).val; rw [e1]; omega)
  rw [he]
  exact wx_apply m c k g q

theorem blk_wh (k : Fin 128) (g : Fin 4) (q : Fin 128) :
    (iblk m c 4 t : Vec Ideal S128x512 .bf16) (ix2 k (lane g q)) = (m ((c : Thread nD τ).loc main_arg4)) (ix3 g q k) := by
  obtain ⟨-, -, e0, e1, -⟩ := idx_fixed t
  show V m c main_v5 (((cfg0.win 4).blk t).view.emb (ix2 k (lane g q))) = _
  have he : ((cfg0.win 4).blk t).view.emb (ix2 k (lane g q)) = ix2 k (lane g q) := funext fun a => Fin.ext (by
    match a with
    | ⟨0, _⟩ => show win0_4.index t (0 : Fin 2) * 128 + 1 * k.val = k.val; rw [e0]; omega
    | ⟨1, _⟩ => show win0_4.index t (1 : Fin 2) * 512 + 1 * (lane g q).val = (lane g q).val; rw [e1]; omega)
  rw [he]
  exact wh_apply m c k g q

theorem blk_bias (g : Fin 4) (q : Fin 128) :
    (iblk m c 5 t : Vec Ideal S1x512 .f32) (ix2 0 (lane g q))
      = FloatOps.addf (F := Ideal) (φ := .f32) ((m ((c : Thread nD τ).loc main_arg5)) (ix2 g q)) ((m ((c : Thread nD τ).loc main_arg6)) (ix2 g q)) := by
  obtain ⟨-, -, -, -, e0, e1, -⟩ := idx_fixed t
  show V m c main_v7 (((cfg0.win 5).blk t).view.emb (ix2 0 (lane g q))) = _
  have he : ((cfg0.win 5).blk t).view.emb (ix2 0 (lane g q)) = ix2 0 (lane g q) := funext fun a => Fin.ext (by
    match a with
    | ⟨0, _⟩ => show win0_5.index t (0 : Fin 2) * 1 + 1 * 0 = 0; rw [e0]
    | ⟨1, _⟩ => show win0_5.index t (1 : Fin 2) * 512 + 1 * (lane g q).val = (lane g q).val; rw [e1]; omega)
  rw [he]
  exact bias_apply m c g q

theorem blk_scale (g : Fin 4) (q : Fin 128) :
    (iblk m c 6 t : Vec Ideal S1x512 .f32) (ix2 0 (lane g q)) = Ideal.ofBits .f32 (lit0 g) := by
  obtain ⟨-, -, -, -, -, -, e0, e1, -⟩ := idx_fixed t
  show V m c main_v10 (((cfg0.win 6).blk t).view.emb (ix2 0 (lane g q))) = _
  have he : ((cfg0.win 6).blk t).view.emb (ix2 0 (lane g q)) = ix2 0 (lane g q) := funext fun a => Fin.ext (by
    match a with
    | ⟨0, _⟩ => show win0_6.index t (0 : Fin 2) * 1 + 1 * 0 = 0; rw [e0]
    | ⟨1, _⟩ => show win0_6.index t (1 : Fin 2) * 512 + 1 * (lane g q).val = (lane g q).val; rw [e1]; omega)
  rw [he]
  exact scale_apply m c g q

theorem blk_shift (g : Fin 4) (q : Fin 128) :
    (iblk m c 7 t : Vec Ideal S1x512 .f32) (ix2 0 (lane g q))
      = if g.val = 2 then Ideal.ofBits .f32 0x00000000#32 else (m ((c : Thread nD τ).loc main_arg7)) (ix2 g q) := by
  obtain ⟨-, -, -, -, -, -, -, -, e0, e1⟩ := idx_fixed t
  show V m c main_v14 (((cfg0.win 7).blk t).view.emb (ix2 0 (lane g q))) = _
  have he : ((cfg0.win 7).blk t).view.emb (ix2 0 (lane g q)) = ix2 0 (lane g q) := funext fun a => Fin.ext (by
    match a with
    | ⟨0, _⟩ => show win0_7.index t (0 : Fin 2) * 1 + 1 * 0 = 0; rw [e0]
    | ⟨1, _⟩ => show win0_7.index t (1 : Fin 2) * 512 + 1 * (lane g q).val = (lane g q).val; rw [e1]; omega)
  rw [he]
  exact shift_apply m c g q

/-- The eight blocks at point `t`, in terms of the arguments. -/
theorem blocks_at : Blocks (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowAt t) :=
  ⟨blk_x m c t, blk_h m c t, blk_c m c t, blk_wx m c t, blk_wh m c t, blk_bias m c t, blk_scale m c t, blk_shift m c t⟩

/-! ## The result array -/

/-- What the result array is shown to hold. -/
abbrev result : Buf (Elt Ideal) ((c : Thread nD τ).loc main_v15) :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What point `t` writes back is block `t` of the result. -/
theorem flushed_eq : (dats m 0 c).flushed 8 t = ((cfg0.win 8).blk t).view.read (Elt Ideal) (result m c) := by
  rw [Value.flushed8]
  obtain ⟨e0, e1, e2⟩ := idx_result t
  funext y
  show out0_8 (iblk m c 0 t) (iblk m c 1 t) (iblk m c 2 t) (iblk m c 3 t) (iblk m c 4 t) (iblk m c 5 t) (iblk m c 6 t) (iblk m c 7 t) y
      = result m c (((cfg0.win 8).blk t).view.emb y)
  rw [out_block (blocks_at m c t) y]
  refine congrArg (result m c) (funext fun a => Fin.ext ?_)
  match a with
  | ⟨0, _⟩ => show (y 0).val = win0_8.index t (0 : Fin 3) * 2 + 1 * (y 0).val; rw [e0]; omega
  | ⟨1, _⟩ => show t.val * 1024 + (y 1).val = win0_8.index t (1 : Fin 3) * 1024 + 1 * (y 1).val; rw [e1]; omega
  | ⟨2, _⟩ => show (y 2).val = win0_8.index t (2 : Fin 3) * 128 + 1 * (y 2).val; rw [e2]; omega

omit c t in
/-- An index of the result is in point `t`'s block iff each coordinate is in the block's range. -/
theorem mem_blk (t : Fin cfg0.N) (i : S2x65536x128.Idx) :
    i ∈ ((cfg0.win 8).blk t).view.set ↔ ∀ a : Fin 3, win0_8.index t a * S2x1024x128.size a ≤ (i a).val
      ∧ (i a).val < win0_8.index t a * S2x1024x128.size a + S2x1024x128.size a := by
  show i ∈ ((View.whole main_v15).slice (win0_8.rect t)).set ↔ _
  rw [View.set_slice_whole, Rect.mem_set_unit]
  exact Iff.rfl

omit c t in
/-- Row `r` lies in the block of point `r / 1024`. -/
theorem cover (i : S2x65536x128.Idx) :
    ∃ t : Fin cfg0.N, (cfg0.win 8).flush t = true ∧ i ∈ ((cfg0.win 8).blk t).view.set := by
  have hi0 : (i 0).val < 2 := (i 0).isLt
  have hi1 : (i 1).val < 65536 := (i 1).isLt
  have hi2 : (i 2).val < 128 := (i 2).isLt
  have hN : cfg0.N = 64 := N_0
  obtain ⟨e0, e1, e2⟩ := idx_result ⟨(i 1).val / 1024, by omega⟩
  refine ⟨⟨(i 1).val / 1024, by omega⟩, flush0_8 _, ?_⟩
  rw [mem_blk]
  intro a
  match a with
  | ⟨0, _⟩ => show win0_8.index _ (0 : Fin 3) * 2 ≤ (i 0).val ∧ (i 0).val < win0_8.index _ (0 : Fin 3) * 2 + 2; rw [e0]; omega
  | ⟨1, _⟩ => show win0_8.index _ (1 : Fin 3) * 1024 ≤ (i 1).val ∧ (i 1).val < win0_8.index _ (1 : Fin 3) * 1024 + 1024; rw [e1]; show (i 1).val / 1024 * 1024 ≤ (i 1).val ∧ (i 1).val < (i 1).val / 1024 * 1024 + 1024; omega
  | ⟨2, _⟩ => show win0_8.index _ (2 : Fin 3) * 128 ≤ (i 2).val ∧ (i 2).val < win0_8.index _ (2 : Fin 3) * 128 + 128; rw [e2]; omega

omit t in
/-- The result array after the run. -/
theorem final : (dats m 0 c).arrAt 8 cfg0.N = result m c :=
  (dats m 0 c).arrAt_eq_of_cover 8 (result m c) (fun t _ => flushed_eq m c t) cover

omit c t in
/-- The kernel's run: the result holds the cell step of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.Lstm.KernelRun

end
-- ==== Proof.RefValue.lean ====
/-
  The reference's result, one operation at a time, is the cell step of Spec.lean.

  The reference contracts the weights with the batch arrays as [gate, unit, row] and transposes to [gate, row, unit];
  read at `(g, b, h)` the sum of the two products plus the broadcast `bx + bh` is the pre-activation `z g b h`. Each
  gate is the slice of that array at its gate index with the unit axis dropped; `bgate`'s row is sliced, flattened
  and broadcast down the rows. The reference writes each sigmoid out as `1 / (1 + e^(-(2·z + bgate)))`, which is the
  logistic function of the extended reals. The two planes of the result are joined along the leading axis: plane 0
  reads the hidden state, plane 1 the cell state.
-/
import proofs.«152622_j9320079033017_1_alg».proof.Proof.Gen.ReferenceIdeal.Read
import proofs.«152622_j9320079033017_1_alg».proof.Proof.Spec

noncomputable section

namespace Cert.Lstm.RefSide

open Cert.ReferenceIdeal Cert.ReferenceIdeal.Gen Cert.ReferenceIdeal.Read Idealize.ShloMosaic Idealize.ShloMosaic.ValueIdx Cert.Lstm

variable (x0 x1 x2 : (⟨S65536x128, .f32⟩ : BufTy).Contents (Elt Ideal)) (x3 x4 : (⟨S4x128x128, .f32⟩ : BufTy).Contents (Elt Ideal))
  (x5 x6 x7 : (⟨S4x128, .f32⟩ : BufTy).Contents (Elt Ideal))

/-! ## The pre-activations -/

/-- The [gate, row, unit] array of pre-activations at `(g, b, h)`. -/
theorem pre_apply (g : Fin 4) (b : Fin 65536) (h : Fin 128) :
    val_main_v8 (F := Ideal) x0 x1 x3 x4 x5 x6 (ix3 g b h) = pre x0 x1 x3 x4 x5 x6 g b h := by
  have el0 : ∀ k : Fin 128, lidx_main_v0 (idx_main_v1 (ix3 g b h)) k = ix3 g h k := fun k => funext fun a => Fin.ext (by
    match a with
    | ⟨0, _⟩ => rfl
    | ⟨1, _⟩ => rfl
    | ⟨2, _⟩ => rfl)
  have er0 : ∀ k : Fin 128, ridx_main_v0 (idx_main_v1 (ix3 g b h)) k = ix2 b k := fun k => funext fun a => Fin.ext (by
    match a with
    | ⟨0, _⟩ => rfl
    | ⟨1, _⟩ => rfl)
  have el2 : ∀ k : Fin 128, lidx_main_v2 (idx_main_v3 (ix3 g b h)) k = ix3 g h k := fun k => funext fun a => Fin.ext (by
    match a with
    | ⟨0, _⟩ => rfl
    | ⟨1, _⟩ => rfl
    | ⟨2, _⟩ => rfl)
  have er2 : ∀ k : Fin 128, ridx_main_v2 (idx_main_v3 (ix3 g b h)) k = ix2 b k := fun k => funext fun a => Fin.ext (by
    match a with
    | ⟨0, _⟩ => rfl
    | ⟨1, _⟩ => rfl)
  have eb : idx_main_v6 (idx_main_v7 (ix3 g b h)) = ix2 g h := funext fun a => Fin.ext (by
    match a with
    | ⟨0, _⟩ => rfl
    | ⟨1, _⟩ => rfl)
  rw [val_main_v8_apply, val_main_v4_apply, val_main_v1_apply, val_main_v0_apply, val_main_v3_apply, val_main_v2_apply,
    val_main_v7_apply, val_main_v6_apply, val_main_v5_apply]
  simp only [el0, er0, el2, er2, eb]
  rfl

/-! ## The four gates' slices -/

theorem gate0_apply (b : Fin 65536) (h : Fin 128) :
    val_main_v10 (F := Ideal) x0 x1 x3 x4 x5 x6 (ix2 b h) = pre x0 x1 x3 x4 x5 x6 0 b h := by
  have e : idx_main_v9 (idx_main_v10 (ix2 b h)) = ix3 0 b h := funext fun a => Fin.ext (by
    have hb := b.isLt; have hh := h.isLt
    match a with
    | ⟨0, _⟩ => rfl
    | ⟨1, _⟩ => show (b.val * 128 + h.val) / 128 % 65536 = b.val; omega
    | ⟨2, _⟩ => show (b.val * 128 + h.val) % 128 = h.val; omega)
  rw [val_main_v10_apply, val_main_v9_apply, e, pre_apply]

theorem gate1_apply (b : Fin 65536) (h : Fin 128) :
    val_main_v25 (F := Ideal) x0 x1 x3 x4 x5 x6 (ix2 b h) = pre x0 x1 x3 x4 x5 x6 1 b h := by
  have e : idx_main_v24 (idx_main_v25 (ix2 b h)) = ix3 1 b h := funext fun a => Fin.ext (by
    have hb := b.isLt; have hh := h.isLt
    match a with
    | ⟨0, _⟩ => rfl
    | ⟨1, _⟩ => show (b.val * 128 + h.val) / 128 % 65536 = b.val; omega
    | ⟨2, _⟩ => show (b.val * 128 + h.val) % 128 = h.val; omega)
  rw [val_main_v25_apply, val_main_v24_apply, e, pre_apply]

theorem gate3_apply (b : Fin 65536) (h : Fin 128) :
    val_main_v40 (F := Ideal) x0 x1 x3 x4 x5 x6 (ix2 b h) = pre x0 x1 x3 x4 x5 x6 3 b h := by
  have e : idx_main_v39 (idx_main_v40 (ix2 b h)) = ix3 3 b h := funext fun a => Fin.ext (by
    have hb := b.isLt; have hh := h.isLt
    match a with
    | ⟨0, _⟩ => rfl
    | ⟨1, _⟩ => show (b.val * 128 + h.val) / 128 % 65536 = b.val; omega
    | ⟨2, _⟩ => show (b.val * 128 + h.val) % 128 = h.val; omega)
  rw [val_main_v40_apply, val_main_v39_apply, e, pre_apply]

theorem gate2_apply (b : Fin 65536) (h : Fin 128) :
    val_main_v55 (F := Ideal) x0 x1 x3 x4 x5 x6 (ix2 b h) = pre x0 x1 x3 x4 x5 x6 2 b h := by
  have e : idx_main_v54 (idx_main_v55 (ix2 b h)) = ix3 2 b h := funext fun a => Fin.ext (by
    have hb := b.isLt; have hh := h.isLt
    match a with
    | ⟨0, _⟩ => rfl
    | ⟨1, _⟩ => show (b.val * 128 + h.val) / 128 % 65536 = b.val; omega
    | ⟨2, _⟩ => show (b.val * 128 + h.val) % 128 = h.val; omega)
  rw [val_main_v55_apply, val_main_v54_apply, e, pre_apply]

/-! ## `bgate`'s rows, broadcast down the batch -/

theorem row0_apply (b : Fin 65536) (h : Fin 128) : val_main_v16 (F := Ideal) x7 (ix2 b h) = x7 (ix2 0 h) := by
  have e : idx_main_v13 (idx_main_v14 (idx_main_v15 (idx_main_v16 (ix2 b h)))) = ix2 0 h := funext fun a => Fin.ext (by
    have hh := h.isLt
    match a with
    | ⟨0, _⟩ => rfl
    | ⟨1, _⟩ => show h.val % 128 = h.val; omega)
  rw [val_main_v16_apply, val_main_v15_apply, val_main_v14_apply, val_main_v13_apply, e]

theorem row1_apply (b : Fin 65536) (h : Fin 128) : val_main_v31 (F := Ideal) x7 (ix2 b h) = x7 (ix2 1 h) := by
  have e : idx_main_v28 (idx_main_v29 (idx_main_v30 (idx_main_v31 (ix2 b h)))) = ix2 1 h := funext fun a => Fin.ext (by
    have hh := h.isLt
    match a with
    | ⟨0, _⟩ => rfl
    | ⟨1, _⟩ => show h.val % 128 = h.val; omega)
  rw [val_main_v31_apply, val_main_v30_apply, val_main_v29_apply, val_main_v28_apply, e]

theorem row3_apply (b : Fin 65536) (h : Fin 128) : val_main_v46 (F := Ideal) x7 (ix2 b h) = x7 (ix2 3 h) := by
  have e : idx_main_v43 (idx_main_v44 (idx_main_v45 (idx_main_v46 (ix2 b h)))) = ix2 3 h := funext fun a => Fin.ext (by
    have hh := h.isLt
    match a with
    | ⟨0, _⟩ => rfl
    | ⟨1, _⟩ => show h.val % 128 = h.val; omega)
  rw [val_main_v46_apply, val_main_v45_apply, val_main_v44_apply, val_main_v43_apply, e]

/-! ## The sigmoid gates -/

theorem sig0_apply (b : Fin 65536) (h : Fin 128) :
    val_main_v23 (F := Ideal) x0 x1 x3 x4 x5 x6 x7 (ix2 b h) = sgate x0 x1 x3 x4 x5 x6 x7 0 b h := by
  rw [val_main_v23_apply, val_main_v22_apply, val_main_cst_1_apply, val_main_v21_apply, val_main_v20_apply, val_main_cst_0_apply,
    val_main_v19_apply, val_main_v18_apply, val_main_v17_apply, val_main_v12_apply, val_main_v11_apply, val_main_cst_apply,
    gate0_apply, row0_apply]
  exact logistic_expand _

theorem sig1_apply (b : Fin 65536) (h : Fin 128) :
    val_main_v38 (F := Ideal) x0 x1 x3 x4 x5 x6 x7 (ix2 b h) = sgate x0 x1 x3 x4 x5 x6 x7 1 b h := by
  rw [val_main_v38_apply, val_main_v37_apply, val_main_cst_4_apply, val_main_v36_apply, val_main_v35_apply, val_main_cst_3_apply,
    val_main_v34_apply, val_main_v33_apply, val_main_v32_apply, val_main_v27_apply, val_main_v26_apply, val_main_cst_2_apply,
    gate1_apply, row1_apply]
  exact logistic_expand _

theorem sig3_apply (b : Fin 65536) (h : Fin 128) :
    val_main_v53 (F := Ideal) x0 x1 x3 x4 x5 x6 x7 (ix2 b h) = sgate x0 x1 x3 x4 x5 x6 x7 3 b h := by
  rw [val_main_v53_apply, val_main_v52_apply, val_main_cst_7_apply, val_main_v51_apply, val_main_v50_apply, val_main_cst_6_apply,
    val_main_v49_apply, val_main_v48_apply, val_main_v47_apply, val_main_v42_apply, val_main_v41_apply, val_main_cst_5_apply,
    gate3_apply, row3_apply]
  exact logistic_expand _

/-! ## The two states and the stacked result -/

theorem cell_apply (b : Fin 65536) (h : Fin 128) :
    val_main_v59 (F := Ideal) x0 x1 x2 x3 x4 x5 x6 x7 (ix2 b h) = cNext x0 x1 x2 x3 x4 x5 x6 x7 b h := by
  rw [val_main_v59_apply, val_main_v57_apply, val_main_v56_apply, gate2_apply, sig1_apply, val_main_v58_apply, sig0_apply]
  rfl

theorem hidden_apply (b : Fin 65536) (h : Fin 128) :
    val_main_v61 (F := Ideal) x0 x1 x2 x3 x4 x5 x6 x7 (ix2 b h) = hNext x0 x1 x2 x3 x4 x5 x6 x7 b h := by
  rw [val_main_v61_apply, sig3_apply, val_main_v60_apply, cell_apply]
  rfl

/-- The reference's result is the cell step. -/
theorem result_eq : val_main_v64 (F := Ideal) x0 x1 x2 x3 x4 x5 x6 x7 = out x0 x1 x2 x3 x4 x5 x6 x7 := by
  funext i
  obtain ⟨s, b, h, rfl⟩ : ∃ (s : Fin 2) (b : Fin 65536) (h : Fin 128), i = ix3 s b h := ⟨i 0, i 1, i 2, eq_ix3 i⟩
  have hs2 := s.isLt
  have e62 : idx_main_v62 (ix3 (0 : Fin 1) b h) = ix2 b h := funext fun a => Fin.ext (by
    match a with
    | ⟨0, _⟩ => rfl
    | ⟨1, _⟩ => rfl)
  have e63 : idx_main_v63 (ix3 (0 : Fin 1) b h) = ix2 b h := funext fun a => Fin.ext (by
    match a with
    | ⟨0, _⟩ => rfl
    | ⟨1, _⟩ => rfl)
  unfold val_main_v64 out
  by_cases hs : s.val = 0
  · refine (concatenate_pair_apply_left (t := S2x65536x128) (s₁ := S1x65536x128) (s₂ := S1x65536x128) (0 : Fin S2x65536x128.rank) _ _ concatenates_S1x65536x128_S1x65536x128_S2x65536x128_d0 (ix3 s b h) rfl
      (ix3 (0 : Fin 1) b h) (fun a => ?_)).trans ?_
    · match a with
      | ⟨0, _⟩ => exact hs.symm
      | ⟨1, _⟩ => rfl
      | ⟨2, _⟩ => rfl
    · rw [val_main_v62_apply, e62, hidden_apply]
      exact (if_pos hs).symm
  · refine (concatenate_pair_apply_right (t := S2x65536x128) (s₁ := S1x65536x128) (s₂ := S1x65536x128) (0 : Fin S2x65536x128.rank) _ _ concatenates_S1x65536x128_S1x65536x128_S2x65536x128_d0 (ix3 s b h) rfl rfl
      (ix3 (0 : Fin 1) b h) (fun a ha => ?_) ?_).trans ?_
    · match a, ha with
      | ⟨0, _⟩, ha => exact absurd rfl ha
      | ⟨1, _⟩, _ => rfl
      | ⟨2, _⟩, _ => rfl
    · show 0 + 1 = s.val; omega
    · rw [val_main_v63_apply, e63, cell_apply]
      exact (if_neg hs).symm

end Cert.Lstm.RefSide

end
-- ==== Proof.lean ====
/-
  The certificate of one LSTM cell step: a Pallas kernel over 64 blocks of 1024 batch rows against its jnp reference.

  Both programs compute, for batch row `b` and hidden unit `h`, the four gate pre-activations
      z g = (Σ_k Wx[g,h,k]·x[b,k] + Σ_k Wh[g,h,k]·h_prev[b,k]) + (bx[g,h] + bh[g,h]),
  the gates `σ(2·z g + bgate[g,h])` (g = 0, 1, 3) and `tanh (z 2)`, then `c' = tanh(z 2)·σ₁ + σ₀·c_prev` and
  `h' = σ₃·tanh c'`, and return `h'` stacked on `c'` (Proof/Spec.lean states this as one function `out`).

  The kernel gets there with all four gates in one [1024, 512] slab per block: the host lays the weights out as
  [128, 512] slabs, the biases, the per-gate scales (2, 2, 1, 2) and the shifts (`bgate`, its cell row zeroed) as
  [1, 512] rows, and the body forms `(x·Wxᵀ + h·Whᵀ + b)·s + d`, whose 128-lane windows are the gates' arguments. At
  the extended reals the narrowing to bf16 is the identity, a matrix product into a zero accumulator is the plain
  sum, `z·2 = 2·z`, and `z·1 + 0 = z`; the reference's `1 / (1 + e^(-v))` is the logistic function the kernel applies.
  None of these laws needs a finite argument, so the precondition is not opened.

  The modules: Spec (the function and the scalar identities), LibScatterSet (a host scatter that overwrites, read at
  an index), KernelBody and KernelGates (the body's arithmetic at an index), KernelHost (the host-built operands at
  an index), KernelValue (from the blocks to the result array), RefValue (the reference, operation by operation).
  The three frames are the generated ones; the idealization rewrote nothing, so `preserves` is `True`.
-/
import proofs.«152622_j9320079033017_1_alg».proof.Defs
import proofs.«152622_j9320079033017_1_alg».proof.Proof.Gen.Kernel
import proofs.«152622_j9320079033017_1_alg».proof.Proof.Gen.Kernel.Skeleton
import proofs.«152622_j9320079033017_1_alg».proof.Proof.Gen.Kernel.Launch
import proofs.«152622_j9320079033017_1_alg».proof.Proof.Gen.Kernel.Points
import proofs.«152622_j9320079033017_1_alg».proof.Proof.Gen.Kernel.Frame
import proofs.«152622_j9320079033017_1_alg».proof.Proof.Gen.KernelIdeal
import proofs.«152622_j9320079033017_1_alg».proof.Proof.Gen.KernelIdeal.Skeleton
import proofs.«152622_j9320079033017_1_alg».proof.Proof.Gen.KernelIdeal.Launch
import proofs.«152622_j9320079033017_1_alg».proof.Proof.Gen.KernelIdeal.Points
import proofs.«152622_j9320079033017_1_alg».proof.Proof.Gen.KernelIdeal.Frame
import proofs.«152622_j9320079033017_1_alg».proof.Proof.Gen.ReferenceIdeal
import proofs.«152622_j9320079033017_1_alg».proof.Proof.Gen.Pre_finite_inputs
import proofs.«152622_j9320079033017_1_alg».proof.Proof.Gen.KernelIdeal.Value
import proofs.«152622_j9320079033017_1_alg».proof.Proof.Gen.ReferenceIdeal.Run
import proofs.«152622_j9320079033017_1_alg».proof.Proof.Gen.ReferenceIdeal.Read
import proofs.«152622_j9320079033017_1_alg».proof.Proof.KernelValue
import proofs.«152622_j9320079033017_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array and the reference's both end holding `out` of
    the arguments. -/
theorem algebraic : Cert.algebraic_KernelIdeal_ReferenceIdeal := by
  intro m ρ m' ρ' _ hagree
  refine ⟨fun c => Cert.Lstm.KernelRun.result m c, Cert.Lstm.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v64_eq, Cert.Lstm.RefSide.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
